-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x2048x32 : Shape := ⟨3, ![2, 2048, 32]⟩
abbrev S_ : Shape := ⟨0, ![]⟩

class Facts : Prop where
  bcast_S_S2x2048x32 : S_.BroadcastsInDim S2x2048x32 (![] : Fin 0 → Fin S2x2048x32.rank)
  reducesTo_S2x2048x32_S_d0_1_2 : S2x2048x32.ReducesTo [0, 1, 2] S_
  h_S_ : 0 < S_.numel

variable [Facts]

def fn {F : FTy → Type} [FloatOps F] (main_arg0 : FVec F S2x2048x32 .f32) (main_arg1 : FVec F S2x2048x32 .f32) : IVec S_ 1 :=
  let main_v0 : FVec F S2x2048x32 .f32 := Host.absf main_arg0
  let main_cst : FVec F S_ .f32 := constant S_ .f32 0x7F800000#32
  let main_v1 : FVec F S2x2048x32 .f32 := broadcastInDim S2x2048x32 ![] bcast_S_S2x2048x32 main_cst
  let main_v2 : IVec S2x2048x32 1 := cmpf .olt main_v0 main_v1
  let main_c : IVec S_ 1 := constantI S_ 1 1#1
  let main_v3 : IVec S_ 1 := (fun x v => Host.reduce IntOp.andi x v reducesTo_S2x2048x32_S_d0_1_2 h_S_) main_v2 main_c
  let main_v4 : FVec F S2x2048x32 .f32 := Host.absf main_arg1
  let main_cst_0 : FVec F S_ .f32 := constant S_ .f32 0x7F800000#32
  let main_v5 : FVec F S2x2048x32 .f32 := broadcastInDim S2x2048x32 ![] bcast_S_S2x2048x32 main_cst_0
  let main_v6 : IVec S2x2048x32 1 := cmpf .olt main_v4 main_v5
  let main_c_1 : IVec S_ 1 := constantI S_ 1 1#1
  let main_v7 : IVec S_ 1 := (fun x v => Host.reduce IntOp.andi x v reducesTo_S2x2048x32_S_d0_1_2 h_S_) main_v6 main_c_1
  let main_v8 : IVec S_ 1 := andi main_v3 main_v7
  main_v8
-- ==== Kernel.lean ====
abbrev S2x2048x32 : Shape := ⟨3, ![2, 2048, 32]⟩
abbrev S2x2048x2048x1 : Shape := ⟨4, ![2, 2048, 2048, 1]⟩
abbrev S1x512x32 : Shape := ⟨3, ![1, 512, 32]⟩
abbrev S1x2048x32 : Shape := ⟨3, ![1, 2048, 32]⟩
abbrev S1x512x2048x1 : Shape := ⟨4, ![1, 512, 2048, 1]⟩
abbrev S512x32 : Shape := ⟨2, ![512, 32]⟩
abbrev S2048x32 : Shape := ⟨2, ![2048, 32]⟩
abbrev S32x2048 : Shape := ⟨2, ![32, 2048]⟩
abbrev S512x2048 : Shape := ⟨2, ![512, 2048]⟩
abbrev S512 : Shape := ⟨1, ![512]⟩
abbrev S512x1 : Shape := ⟨2, ![512, 1]⟩
abbrev S2048 : Shape := ⟨1, ![2048]⟩
abbrev S2048x1 : Shape := ⟨2, ![2048, 1]⟩
abbrev S1x2048 : Shape := ⟨2, ![1, 2048]⟩
abbrev S512x2048x1 : Shape := ⟨3, ![512, 2048, 1]⟩

abbrev nBuf : Space → Nat
  | .hbm => 3
  | .vmem => 6
  | .smem => 0
  | _ => 0

abbrev bufTy : (tb : Table) → Fin (tcTables nBuf tb) → BufTy
  | .hbm, ⟨0, _⟩ => ⟨S2x2048x32, .f32⟩
  | .hbm, ⟨1, _⟩ => ⟨S2x2048x32, .f32⟩
  | .hbm, ⟨2, _⟩ => ⟨S2x2048x2048x1, .f32⟩
  | .local _ .vmem, ⟨0, _⟩ => ⟨S1x512x32, .f32⟩
  | .local _ .vmem, ⟨1, _⟩ => ⟨S1x512x32, .f32⟩
  | .local _ .vmem, ⟨2, _⟩ => ⟨S1x2048x32, .f32⟩
  | .local _ .vmem, ⟨3, _⟩ => ⟨S1x2048x32, .f32⟩
  | .local _ .vmem, ⟨4, _⟩ => ⟨S1x512x2048x1, .f32⟩
  | .local _ .vmem, ⟨5, _⟩ => ⟨S1x512x2048x1, .f32⟩
  | _, _ => ⟨S2x2048x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x512x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x512x2048x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  inb_S1x512x32_S1x512x32_0_0_0 : ∀ a, (![0, 0, 0] : Fin 3 → Nat) a + S1x512x32.size a ≤ S1x512x32.size a
  h_S1x512x32 : 0 < S1x512x32.numel
  shapeCasts_S1x512x32_S512x32 : S1x512x32.ShapeCasts S512x32
  inb_S1x2048x32_S1x2048x32_0_0_0 : ∀ a, (![0, 0, 0] : Fin 3 → Nat) a + S1x2048x32.size a ≤ S1x2048x32.size a
  h_S1x2048x32 : 0 < S1x2048x32.numel
  shapeCasts_S1x2048x32_S2048x32 : S1x2048x32.ShapeCasts S2048x32
  transposes_S2048x32_p1_0_S32x2048 : S2048x32.Transposes [1, 0] S32x2048
  reduces_S512x32_S512 : S512x32.Reduces [1] S512
  shapeCasts_S512_S512x1 : S512.ShapeCasts S512x1
  reduces_S2048x32_S2048 : S2048x32.Reduces [1] S2048
  shapeCasts_S2048_S2048x1 : S2048.ShapeCasts S2048x1
  transposes_S2048x1_p1_0_S1x2048 : S2048x1.Transposes [1, 0] S1x2048
  broadcasts_S512x1_S512x2048 : S512x1.Broadcasts S512x2048
  broadcasts_S1x2048_S512x2048 : S1x2048.Broadcasts S512x2048
  shapeCasts_S512x2048_S512x2048x1 : S512x2048.ShapeCasts S512x2048x1
  inb_S1x512x2048x1_S1x512x2048x1_0_0_0_0 : ∀ a, (![0, 0, 0, 0] : Fin 4 → Nat) a + S1x512x2048x1.size a ≤ S1x512x2048x1.size a
  h_S1x512x2048x1 : 0 < S1x512x2048x1.numel
  shapeCasts_S1x512x2048x1_S512x2048x1 : S1x512x2048x1.ShapeCasts S512x2048x1
  shapeCasts_S512x2048x1_S1x512x2048x1 : S512x2048x1.ShapeCasts S1x512x2048x1
  dot_S512x32_S32x2048_S512x2048_1_0_0_1_n_n_wf : DotDims.WF S512x32 S32x2048 S512x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x32.size a ≤ S2x2048x32.size a
  hwx0_0 : ∀ i : grid0.Coords, EltTy.bits .f32 = 32 ∨ (Rect.block (s := S2x2048x32) S1x512x32.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x32.size a ≤ S2x2048x32.size a
  hwx0_1 : ∀ i : grid0.Coords, EltTy.bits .f32 = 32 ∨ (Rect.block (s := S2x2048x32) S1x2048x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512x2048x1.size a ≤ S2x2048x2048x1.size a
  hwx0_2 : ∀ i : grid0.Coords, EltTy.bits .f32 = 32 ∨ (Rect.block (s := S2x2048x2048x1) S1x512x2048x1.size (cc0_transform_2 i) (hinb0_2 i)).WholeWords (EltTy.packing .f32)

variable [Facts₀]

def dot_S512x32_S32x2048_S512x2048_1_0_0_1_n_n : DotDims S512x32 S32x2048 S512x2048 where
  lhsContracting := [1]
  rhsContracting := [0]
  lhsNonContracting := [0]
  rhsNonContracting := [1]
  lhsBatch := []
  rhsBatch := []
  wf := dot_S512x32_S32x2048_S512x2048_1_0_0_1_n_n_wf

abbrev win0_0 : Pipeline.Window sig grid0 :=
  Pipeline.Window.ofSpec (Memref.whole main_arg0) S1x512x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x2048x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x512x2048x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S2x2048x32 : Shape := ⟨3, ![2, 2048, 32]⟩
abbrev S2x2048x1x32 : Shape := ⟨4, ![2, 2048, 1, 32]⟩
abbrev S2x1x2048x32 : Shape := ⟨4, ![2, 1, 2048, 32]⟩
abbrev S2x2048x2048x32 : Shape := ⟨4, ![2, 2048, 2048, 32]⟩
abbrev S_ : Shape := ⟨0, ![]⟩
abbrev S2x2048x2048 : Shape := ⟨3, ![2, 2048, 2048]⟩
abbrev S2x2048x2048x1 : Shape := ⟨4, ![2, 2048, 2048, 1]⟩

abbrev nBuf : Space → Nat
  | .hbm => 15
  | .vmem => 0
  | .smem => 0
  | _ => 0

abbrev bufTy : (tb : Table) → Fin (tcTables nBuf tb) → BufTy
  | .hbm, ⟨0, _⟩ => ⟨S2x2048x32, .f32⟩
  | .hbm, ⟨1, _⟩ => ⟨S2x2048x32, .f32⟩
  | .hbm, ⟨2, _⟩ => ⟨S2x2048x1x32, .f32⟩
  | .hbm, ⟨3, _⟩ => ⟨S2x1x2048x32, .f32⟩
  | .hbm, ⟨4, _⟩ => ⟨S2x2048x2048x32, .f32⟩
  | .hbm, ⟨5, _⟩ => ⟨S2x2048x2048x32, .f32⟩
  | .hbm, ⟨6, _⟩ => ⟨S2x2048x2048x32, .f32⟩
  | .hbm, ⟨7, _⟩ => ⟨S2x2048x2048x32, .f32⟩
  | .hbm, ⟨8, _⟩ => ⟨S_, .f32⟩
  | .hbm, ⟨9, _⟩ => ⟨S2x2048x2048, .f32⟩
  | .hbm, ⟨10, _⟩ => ⟨S2x2048x2048x1, .f32⟩
  | .hbm, ⟨11, _⟩ => ⟨S_, .f32⟩
  | .hbm, ⟨12, _⟩ => ⟨S2x2048x2048x1, .f32⟩
  | .hbm, ⟨13, _⟩ => ⟨S2x2048x2048x1, .f32⟩
  | .hbm, ⟨14, _⟩ => ⟨S2x2048x2048x1, .f32⟩
  | _, _ => ⟨S2x2048x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_cst_0 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩

abbrev nD : Nat := 1
abbrev τ : Topo := Topo.v7x

variable {F : FTy → Type} [FloatOps F]

class Facts₀ : Prop where
  bcast_S2x2048x32_S2x2048x1x32_0_1_3 : S2x2048x32.BroadcastsInDim S2x2048x1x32 (![0, 1, 3] : Fin 3 → Fin S2x2048x1x32.rank)
  bcast_S2x2048x32_S2x1x2048x32_0_2_3 : S2x2048x32.BroadcastsInDim S2x1x2048x32 (![0, 2, 3] : Fin 3 → Fin S2x1x2048x32.rank)
  bcast_S2x2048x1x32_S2x2048x2048x32_0_1_2_3 : S2x2048x1x32.BroadcastsInDim S2x2048x2048x32 (![0, 1, 2, 3] : Fin 4 → Fin S2x2048x2048x32.rank)
  bcast_S2x1x2048x32_S2x2048x2048x32_0_1_2_3 : S2x1x2048x32.BroadcastsInDim S2x2048x2048x32 (![0, 1, 2, 3] : Fin 4 → Fin S2x2048x2048x32.rank)
  reducesTo_S2x2048x2048x32_S2x2048x2048_d3 : S2x2048x2048x32.ReducesTo [3] S2x2048x2048
  h_S_ : 0 < S_.numel
  bcast_S2x2048x2048_S2x2048x2048x1_0_1_2 : S2x2048x2048.BroadcastsInDim S2x2048x2048x1 (![0, 1, 2] : Fin 3 → Fin S2x2048x2048x1.rank)
  bcast_S_S2x2048x2048x1 : S_.BroadcastsInDim S2x2048x2048x1 (![] : Fin 0 → Fin S2x2048x2048x1.rank)

variable [Facts₀]

class Facts : Prop extends Facts₀ where

variable [Facts]
-- ==== Proof.LibKeepdims.lean ====
/-
  Two layout operations of a kept-dimension row sum, read at an index: a vector [a] recast as a column [a, 1], and a
  column [a, 1] broadcast over b columns.  (The row forms [a] -> [1, a] and [1, b] -> [a, b] and the matrix transpose
  are library lemmas; these are their column counterparts, proved the same way: a cast keeps the row-major position,
  a broadcast reads coordinate 0 on a unit axis.)
-/
import Idealize.ShloMosaic.Lib.Pipeline.Value
import Idealize.ShloMosaic.Lib.ValueIdx
import Idealize.ShloMosaic.Lib.ValueLayout

namespace Cert.LibKeepdims

open Idealize.ShloMosaic Idealize.ShloMosaic.ValueIdx

variable {α : Type}

/-- An [a] array cast to a column [a, 1] reads, at (i, u), the operand at i, whatever the unit coordinate u. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column [a, 1] broadcast to [a, b] reads, at (p, c), the column at p. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibKeepdims
-- ==== Proof.LibInnerProducts.lean ====
/-
  A matrix product and a sum along the last axis, read at an index on the extended reals.

  At the ideal values a matrix product of an `[M, K]` matrix with a `[K, N]` matrix, accumulated into zero, holds at
  `(p, f)` the inner product of row `p` of the left factor with column `f` of the right factor: the sum over `d` of
  `a (p, d) · w (d, f)`, with no rounding and no order of summation left in it. A sum of an `[a, b, c]` array along its
  last axis holds at `(p, q)` the sum over `f` of the array at `(p, q, f)`. Both are the library's general statements
  with the contraction index and the inserted coordinate written as a plain `Fin`.
-/
import Idealize.ShloMosaic.PureOps.Ideal.Laws
import Idealize.ShloMosaic.Lib.ValueIdx

noncomputable section

namespace Idealize.ShloMosaic.InnerProducts

open Idealize.ShloMosaic Idealize.ShloMosaic.ValueIdx
open scoped BigOperators

/-- An `[M, K]` by `[K, N]` matrix product into the zero accumulator is, at `(p, f)`, the inner product of row `p` of
    the left factor with column `f` of the right factor. `D` is any record of the plain dimension numbers (contract the
    left factor's columns with the right factor's rows, no batch axis). -/
theorem matmul_zero_apply {M K N : ℕ} {φ₁ φ₂ : FTy} (D : DotDims ⟨2, ![M, K]⟩ ⟨2, ![K, N]⟩ ⟨2, ![M, N]⟩)
    (hD : D = DotDims.plain M K N) (prec : Option ContractPrecision)
    (a : FVec Ideal ⟨2, ![M, K]⟩ φ₁) (w : FVec Ideal ⟨2, ![K, N]⟩ φ₂) (p : Fin M) (f : Fin N) :
    matmul D prec a w (constant (F := Ideal) ⟨2, ![M, N]⟩ .f32 0x00000000#32) (ix2 p f)
      = ∑ d : Fin K, a (ix2 p d) * w (ix2 d f) := by
  subst hD
  refine (Ideal.matmul_constant_zero_apply (DotDims.plain M K N) prec a w (ix2 p f)).trans ?_
  rw [← Equiv.sum_comp (contrEquiv1 (DotDims.plain M K N) K rfl rfl).symm]
  refine Finset.sum_congr rfl fun d _ => ?_
  have hd := contrEquiv1_symm_val (DotDims.plain M K N) K rfl rfl d
  have el : (DotDims.plain M K N).lhsIdx (ix2 p f) ((contrEquiv1 (DotDims.plain M K N) K rfl rfl).symm d) = ix2 p d :=
    funext fun ax => Fin.ext (by
      match ax with
      | ⟨0, _⟩ => rfl
      | ⟨1, _⟩ => exact ((DotDims.plain M K N).lhsIdx_val_of_single rfl (ix2 p f) _).trans hd)
  have er : (DotDims.plain M K N).rhsIdx (ix2 p f) ((contrEquiv1 (DotDims.plain M K N) K rfl rfl).symm d) = ix2 d f :=
    funext fun ax => Fin.ext (by
      match ax with
      | ⟨0, _⟩ => exact ((DotDims.plain M K N).rhsIdx_val_of_single rfl (ix2 p f) _).trans hd
      | ⟨1, _⟩ => rfl)
  rw [el, er]

/-- The host's `dot_general` with the same plain dimension numbers is the same inner product (it has no accumulator). -/
theorem dotGeneral_apply {M K N : ℕ} {φ₁ φ₂ : FTy} (D : DotDims ⟨2, ![M, K]⟩ ⟨2, ![K, N]⟩ ⟨2, ![M, N]⟩)
    (hD : D = DotDims.plain M K N) (prec : Option ContractPrecision)
    (a : FVec Ideal ⟨2, ![M, K]⟩ φ₁) (w : FVec Ideal ⟨2, ![K, N]⟩ φ₂) (p : Fin M) (f : Fin N) :
    Host.dotGeneral D prec a w (ix2 p f) = ∑ d : Fin K, a (ix2 p d) * w (ix2 d f) := by
  subst hD
  refine (Ideal.dotGeneral_apply (DotDims.plain M K N) prec .single a w (ix2 p f)).trans ?_
  rw [← Equiv.sum_comp (contrEquiv1 (DotDims.plain M K N) K rfl rfl).symm]
  refine Finset.sum_congr rfl fun d _ => ?_
  have hd := contrEquiv1_symm_val (DotDims.plain M K N) K rfl rfl d
  have el : (DotDims.plain M K N).lhsIdx (ix2 p f) ((contrEquiv1 (DotDims.plain M K N) K rfl rfl).symm d) = ix2 p d :=
    funext fun ax => Fin.ext (by
      match ax with
      | ⟨0, _⟩ => rfl
      | ⟨1, _⟩ => exact ((DotDims.plain M K N).lhsIdx_val_of_single rfl (ix2 p f) _).trans hd)
  have er : (DotDims.plain M K N).rhsIdx (ix2 p f) ((contrEquiv1 (DotDims.plain M K N) K rfl rfl).symm d) = ix2 d f :=
    funext fun ax => Fin.ext (by
      match ax with
      | ⟨0, _⟩ => exact ((DotDims.plain M K N).rhsIdx_val_of_single rfl (ix2 p f) _).trans hd
      | ⟨1, _⟩ => rfl)
  rw [el, er]

/-- A float sum of an `[a, b, c]` array along its last axis is, at `(p, q)`, the sum over `f` of the array at
    `(p, q, f)`. -/
theorem lane_sum_apply {a b c : ℕ} {φ : FTy} (x : FVec Ideal ⟨3, ![a, b, c]⟩ φ) (acc : BitVec φ.bits)
    (h : (⟨3, ![a, b, c]⟩ : Shape).Reduces [2] ⟨2, ![a, b]⟩) (hφ : FKind.Formats φ)
    (hacc : acc = FKind.add.neutral φ hφ) (p : Fin a) (q : Fin b) :
    multiReduction .add [2] ⟨2, ![a, b]⟩ x acc h hφ hacc (ix2 p q) = ∑ f : Fin c, x (ix3 p q f) := by
  refine (Ideal.multiReduction_add_single x acc h hφ hacc (ix2 p q)).trans ?_
  show ∑ f : Fin c, x (h.lift (ix2 p q) f) = ∑ f : Fin c, x (ix3 p q f)
  refine Finset.sum_congr rfl fun f _ => congrArg x (funext fun ax => Fin.ext ?_)
  match ax with
  | ⟨0, _⟩ => rfl
  | ⟨1, _⟩ => rfl
  | ⟨2, _⟩ => rfl

end Idealize.ShloMosaic.InnerProducts

end
-- ==== Proof.LibGramNorms.lean ====
/-
  Squared row norms and the Gram product of two matrices, read at an index on the extended reals.

  For matrices `a : [M, K]` and `b : [N, K]`, at the ideal values:
  • a sum of an `[a, b]` array along its last axis holds at `p` the sum over `f` of the array at `(p, f)`;
  • the squared norms of the rows of `a`, kept as a column `[M, 1]` and stretched over `N` columns, hold at
    `(p, f)` the sum over `d` of `a (p, d) · a (p, d)`, whatever the column `f`;
  • the squared norms of the rows of `b`, kept as a column `[N, 1]`, transposed to a row `[1, N]` and stretched
    over `M` rows, hold at `(p, f)` the sum over `d` of `b (f, d) · b (f, d)`, whatever the row `p`;
  • the product of `a` with the transpose of `b`, accumulated into zero, holds at `(p, f)` the inner product of
    row `p` of `a` with row `f` of `b`: the Gram matrix of the two families of rows.
  Each is a chain of layout reads (a cast keeps the row-major position, a broadcast reads coordinate 0 on a unit
  axis, a transpose swaps the two coordinates) ending in a `Fin`-indexed sum.
-/
import Idealize.ShloMosaic.PureOps.Ideal.Laws
import Idealize.ShloMosaic.Lib.ValueIdx
import Idealize.ShloMosaic.Lib.ValueLayout
import proofs.«173155_j12335146074113_1_alg».proof.Proof.LibKeepdims
import proofs.«173155_j12335146074113_1_alg».proof.Proof.LibInnerProducts

noncomputable section

namespace Cert.LibGramNorms

open Idealize.ShloMosaic Idealize.ShloMosaic.ValueIdx
open scoped BigOperators

/-- A float sum of an `[a, b]` array along its last axis is, at `p`, the sum over `f` of the array at `(p, f)`. -/
theorem row_sum_apply {a b : ℕ} {φ : FTy} (x : FVec Ideal ⟨2, ![a, b]⟩ φ) (acc : BitVec φ.bits)
    (h : (⟨2, ![a, b]⟩ : Shape).Reduces [1] ⟨1, ![a]⟩) (hφ : FKind.Formats φ)
    (hacc : acc = FKind.add.neutral φ hφ) (p : Fin a) :
    multiReduction .add [1] ⟨1, ![a]⟩ x acc h hφ hacc (ix1 p) = ∑ f : Fin b, x (ix2 p f) := by
  refine (Ideal.multiReduction_add_single x acc h hφ hacc (ix1 p)).trans ?_
  show ∑ f : Fin b, x (h.lift (ix1 p) f) = ∑ f : Fin b, x (ix2 p f)
  refine Finset.sum_congr rfl fun f _ => congrArg x (funext fun ax => Fin.ext ?_)
  match ax with
  | ⟨0, _⟩ => rfl
  | ⟨1, _⟩ => rfl

/-- The squared norms of the rows of `a : [M, K]`, kept as a column and stretched over `N` columns: at `(p, f)` the
    sum over `d` of `a (p, d) · a (p, d)`. -/
theorem sqnorm_column_apply {M K N : ℕ} {φ : FTy} (a : FVec Ideal ⟨2, ![M, K]⟩ φ) (acc : BitVec φ.bits)
    (hr : (⟨2, ![M, K]⟩ : Shape).Reduces [1] ⟨1, ![M]⟩) (hφ : FKind.Formats φ) (hacc : acc = FKind.add.neutral φ hφ)
    (hc : (⟨1, ![M]⟩ : Shape).ShapeCasts ⟨2, ![M, 1]⟩) (hb : (⟨2, ![M, 1]⟩ : Shape).Broadcasts ⟨2, ![M, N]⟩)
    (p : Fin M) (f : Fin N) :
    broadcastTo ⟨2, ![M, N]⟩
        (shapeCast ⟨2, ![M, 1]⟩ (multiReduction .add [1] ⟨1, ![M]⟩ (mulf a a) acc hr hφ hacc) hc) hb (ix2 p f)
      = ∑ d : Fin K, a (ix2 p d) * a (ix2 p d) :=
  ((Cert.LibKeepdims.broadcastTo_a1_ab_apply _ hb p f).trans
      (Cert.LibKeepdims.shapeCast_a_a1_apply _ hc p (0 : Fin 1))).trans
    (row_sum_apply (mulf a a) acc hr hφ hacc p)

/-- The squared norms of the rows of `b : [N, K]`, kept as a column, transposed to a row and stretched over `M` rows:
    at `(p, f)` the sum over `d` of `b (f, d) · b (f, d)`. -/
theorem sqnorm_row_apply {M K N : ℕ} {φ : FTy} (b : FVec Ideal ⟨2, ![N, K]⟩ φ) (acc : BitVec φ.bits)
    (hr : (⟨2, ![N, K]⟩ : Shape).Reduces [1] ⟨1, ![N]⟩) (hφ : FKind.Formats φ) (hacc : acc = FKind.add.neutral φ hφ)
    (hc : (⟨1, ![N]⟩ : Shape).ShapeCasts ⟨2, ![N, 1]⟩) (ht : (⟨2, ![N, 1]⟩ : Shape).Transposes [1, 0] ⟨2, ![1, N]⟩)
    (hb : (⟨2, ![1, N]⟩ : Shape).Broadcasts ⟨2, ![M, N]⟩) (p : Fin M) (f : Fin N) :
    broadcastTo ⟨2, ![M, N]⟩
        (transpose ⟨2, ![1, N]⟩ [1, 0]
          (shapeCast ⟨2, ![N, 1]⟩ (multiReduction .add [1] ⟨1, ![N]⟩ (mulf b b) acc hr hφ hacc) hc) ht) hb (ix2 p f)
      = ∑ d : Fin K, b (ix2 f d) * b (ix2 f d) :=
  (((broadcastTo_1b_ab_apply _ hb p f).trans (transpose_ix2_apply _ ht (0 : Fin 1) f)).trans
      (Cert.LibKeepdims.shapeCast_a_a1_apply _ hc f (0 : Fin 1))).trans
    (row_sum_apply (mulf b b) acc hr hφ hacc f)

/-- The product of `a : [M, K]` with the transpose of `b : [N, K]`, accumulated into zero: at `(p, f)` the inner
    product of row `p` of `a` with row `f` of `b`. `D` is any record of the plain dimension numbers. -/
theorem gram_apply {M K N : ℕ} {φ₁ φ₂ : FTy} (D : DotDims ⟨2, ![M, K]⟩ ⟨2, ![K, N]⟩ ⟨2, ![M, N]⟩)
    (hD : D = DotDims.plain M K N) (prec : Option ContractPrecision)
    (a : FVec Ideal ⟨2, ![M, K]⟩ φ₁) (b : FVec Ideal ⟨2, ![N, K]⟩ φ₂)
    (ht : (⟨2, ![N, K]⟩ : Shape).Transposes [1, 0] ⟨2, ![K, N]⟩) (p : Fin M) (f : Fin N) :
    matmul D prec a (transpose ⟨2, ![K, N]⟩ [1, 0] b ht) (constant (F := Ideal) ⟨2, ![M, N]⟩ .f32 0x00000000#32) (ix2 p f)
      = ∑ d : Fin K, a (ix2 p d) * b (ix2 f d) := by
  refine (Idealize.ShloMosaic.InnerProducts.matmul_zero_apply D hD prec a _ p f).trans ?_
  exact Finset.sum_congr rfl fun d _ => congrArg (a (ix2 p d) * ·) (transpose_ix2_apply b ht d f)

end Cert.LibGramNorms

end
-- ==== Proof.LibRank3Layout.lean ====
/-
  Three layout operations of rank three read at an index given by coordinates.

  A matrix `[a, b]` viewed as `[a, b, 1]` (a trailing unit axis added by a shape cast) keeps its row-major
  position, so entry `(i, j, 0)` of the view is entry `(i, j)` of the matrix. A broadcast never moves a
  coordinate: it reads the operand at the same coordinate on every axis the operand really has, and at `0` on
  an axis of extent one. So `[a, b, 1]` broadcast to `[a, b, c]` forgets the last coordinate, and
  `[1, b, c]` broadcast to `[a, b, c]` forgets the first.

  Together: `x[:, :, None]` stretched along a new last axis reads `x (i, j)` at `(i, j, k)`, and
  `w[None, :, :]` stretched along a new first axis reads `w (j, k)` at `(p, j, k)`.
-/
import Idealize.ShloMosaic.Lib.ValueLayout

namespace Cert.Rank3Layout

open Idealize.ShloMosaic Idealize.ShloMosaic.ValueIdx

variable {α : Type}

/-- An `[a, b]` array cast to `[a, b, 1]` reads, at `(i, j, u)`, the operand at `(i, j)`, whatever the unit
    coordinate `u`: both sit at row-major position `i * b + j`. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An `[a, b, 1]` array broadcast to `[a, b, c]` reads, at `(i, j, k)`, the operand at `(i, j, 0)`: the last
    axis has extent one in the operand, the other two are read where they are. -/
theorem broadcastTo_ab1_abc_apply {a b c : ℕ} (v : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ v h (ix3 i j k) = v (ix3 i j (0 : Fin 1)) := by
  refine broadcastTo_apply v h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ =>
    show (0 : ℕ) = if (1 : ℕ) = 1 then 0 else k.val
    rw [if_pos rfl]

/-- A `[1, b, c]` array broadcast to `[a, b, c]` reads, at `(p, j, k)`, the operand's one slab at `(0, j, k)`. -/
theorem broadcastTo_1bc_abc_apply {a b c : ℕ} (v : (⟨3, ![1, b, c]⟩ : Shape).Idx → α)
    (h : (⟨3, ![1, b, c]⟩ : Shape).Broadcasts ⟨3, ![a, b, c]⟩) (p : Fin a) (j : Fin b) (k : Fin c) :
    broadcastTo ⟨3, ![a, b, c]⟩ v h (ix3 p j k) = v (ix3 (0 : Fin 1) j k) := by
  refine broadcastTo_apply v h (ix3 p j k) (ix3 (0 : Fin 1) j k) fun ax => ?_
  match ax with
  | ⟨0, _⟩ =>
    show (0 : ℕ) = if (1 : ℕ) = 1 then 0 else p.val
    rw [if_pos rfl]
  | ⟨1, _⟩ =>
    show j.val = if b = 1 then 0 else j.val
    split
    · have := j.isLt; omega
    · rfl
  | ⟨2, _⟩ =>
    show k.val = if c = 1 then 0 else k.val
    split
    · have := k.isLt; omega
    · rfl

/-- The column view of a matrix stretched along a new last axis: `x[:, :, None]` broadcast to `[a, b, c]` reads
    `x (i, j)` at `(i, j, k)`. -/
theorem column_stretch_apply {a b c : ℕ} (x : (⟨2, ![a, b]⟩ : Shape).Idx → α)
    (hc : (⟨2, ![a, b]⟩ : Shape).ShapeCasts ⟨3, ![a, b, 1]⟩)
    (hb : (⟨3, ![a, b, 1]⟩ : Shape).Broadcasts ⟨3, ![a, b, c]⟩) (i : Fin a) (j : Fin b) (k : Fin c) :
    broadcastTo ⟨3, ![a, b, c]⟩ (shapeCast ⟨3, ![a, b, 1]⟩ x hc) hb (ix3 i j k) = x (ix2 i j) :=
  (broadcastTo_ab1_abc_apply _ hb i j k).trans (shapeCast_ab_ab1_apply x hc i j 0)

/-- The slab view of a matrix stretched along a new first axis: `w[None, :, :]` broadcast to `[a, b, c]` reads
    `w (j, k)` at `(p, j, k)`. -/
theorem slab_stretch_apply {a b c : ℕ} (w : (⟨2, ![b, c]⟩ : Shape).Idx → α)
    (hc : (⟨2, ![b, c]⟩ : Shape).ShapeCasts ⟨3, ![1, b, c]⟩)
    (hb : (⟨3, ![1, b, c]⟩ : Shape).Broadcasts ⟨3, ![a, b, c]⟩) (p : Fin a) (j : Fin b) (k : Fin c) :
    broadcastTo ⟨3, ![a, b, c]⟩ (shapeCast ⟨3, ![1, b, c]⟩ w hc) hb (ix3 p j k) = w (ix2 j k) :=
  (broadcastTo_1bc_abc_apply _ hb p j k).trans (shapeCast_ab_1ab_apply w hc 0 j k)

end Cert.Rank3Layout
-- ==== Proof.KernelBlock.lean ====
/-
  What the kernel's body stores, index by index.

  The body loads a `[1, 512, 32]` block of `x` and the `[1, 2048, 32]` block of `y` of the same batch, and stores
  a `[1, 512, 2048, 1]` block. At `(·, r, k, ·)` the stored value is
      √(max((‖x_r‖² + ‖y_k‖²) − 2·⟨x_r, y_k⟩, ε)),
  the rows `x_r`, `y_k` read off the loaded blocks at `(0, r, d)`, `(0, k, d)`: the two trailing casts keep the
  row-major position; ‖x_r‖² reaches `(r, k)` as a kept column stretched over the columns, ‖y_k‖² as a kept column
  turned into a row and stretched over the rows, and ⟨x_r, y_k⟩ is the `(r, k)` entry of `x` times the transpose of
  `y` accumulated into zero.
-/
import proofs.«173155_j12335146074113_1_alg».proof.Proof.Gen.KernelIdeal.Skeleton
import proofs.«173155_j12335146074113_1_alg».proof.Proof.LibGramNorms
import proofs.«173155_j12335146074113_1_alg».proof.Proof.LibRank3Layout
import Idealize.ShloMosaic.Lib.ValueLayout

noncomputable section

namespace Cert.KernelIdeal.BlockValue

open Cert.KernelIdeal Cert.KernelIdeal.Gen Cert.KernelIdeal.Facts
open Idealize.ShloMosaic Idealize.ShloMosaic.ValueIdx
open scoped BigOperators

/-- The value the body stores at `(u, r, k, w)` of its output block, from the two loaded blocks. -/
theorem payload_apply (v0 : Vec Ideal S1x512x32 .f32) (v2 : Vec Ideal S1x2048x32 .f32)
    (u : Fin 1) (r : Fin 512) (k : Fin 2048) (w : Fin 1) :
    k0_pay1 (F := Ideal) v0 v2 (ix4 u r k w)
      = Ideal.sqrt (max
          (((∑ d : Fin 32, v0 (ix3 (0 : Fin 1) r d) * v0 (ix3 (0 : Fin 1) r d))
              + ∑ d : Fin 32, v2 (ix3 (0 : Fin 1) k d) * v2 (ix3 (0 : Fin 1) k d))
            - Ideal.ofBits .f32 0x40000000#32 * ∑ d : Fin 32, v0 (ix3 (0 : Fin 1) r d) * v2 (ix3 (0 : Fin 1) k d))
          (Ideal.ofBits .f32 0x33D6BF95#32)) := by
  unfold k0_pay1
  refine (shapeCast_abc_1abc_apply _ _ u r k w).trans ?_
  refine (Cert.Rank3Layout.shapeCast_ab_ab1_apply _ _ r k w).trans ?_
  have hx2 := Cert.LibGramNorms.sqnorm_column_apply (N := 2048) (shapeCast S512x32 v0 shapeCasts_S1x512x32_S512x32)
    0x00000000#32 reduces_S512x32_S512 (.inl rfl) rfl shapeCasts_S512_S512x1 broadcasts_S512x1_S512x2048 r k
  have hy2 := Cert.LibGramNorms.sqnorm_row_apply (M := 512) (shapeCast S2048x32 v2 shapeCasts_S1x2048x32_S2048x32)
    0x00000000#32 reduces_S2048x32_S2048 (.inl rfl) rfl shapeCasts_S2048_S2048x1 transposes_S2048x1_p1_0_S1x2048
    broadcasts_S1x2048_S512x2048 r k
  have hxy := Cert.LibGramNorms.gram_apply (φ₁ := .f32) (φ₂ := .f32) dot_S512x32_S32x2048_S512x2048_1_0_0_1_n_n rfl none
    (shapeCast S512x32 v0 shapeCasts_S1x512x32_S512x32) (shapeCast S2048x32 v2 shapeCasts_S1x2048x32_S2048x32)
    transposes_S2048x32_p1_0_S32x2048 r k
  simp only [shapeCast_1ab_ab_apply] at hx2 hy2 hxy
  show Ideal.sqrt (max ((_ + _) - Ideal.ofBits .f32 0x40000000#32 * _) (Ideal.ofBits .f32 0x33D6BF95#32)) = _
  rw [hx2, hy2, hxy]

end Cert.KernelIdeal.BlockValue

end
-- ==== Proof.SquaredDistance.lean ====
/-
  The mathematics of the pairwise Euclidean distance, on the extended reals.

  For two vectors `a`, `b` of `K` real numbers the squared distance has two spellings,
      ‖a‖² + ‖b‖² − 2·⟨a, b⟩    and    Σ_d (a_d − b_d)²,
  equal because (a_d − b_d)² = a_d² + b_d² − 2·a_d·b_d term by term. On the extended reals the identity needs the
  entries to be real: with an infinite entry the left side may be `⊤ − ⊤`. So it is proved for real entries, every
  sum carried back into ℝ first (the embedding of ℝ commutes with finite sums, products and differences).

  The distance array itself: for `x, y : [2, 2048, 32]`, entry `(g, n, k, 0)` is the square root of the larger of
  the squared distance between row `n` of `x` and row `k` of `y` in batch `g`, and the floor `ε` (the f32
  word `0x33D6BF95`, never evaluated: the same word on both sides). `distExpanded` spells the squared distance the
  first way, `distDirect` the second; `distExpanded_eq_distDirect` says they are one array when every entry of
  `x` and `y` is real.
-/
import Idealize.ShloMosaic.PureOps.Ideal
import Idealize.ShloMosaic.PureOps.Ideal.Laws
import Idealize.ShloMosaic.Lib.ValueIdx

noncomputable section

namespace Cert.SquaredDistance

open Idealize.ShloMosaic Idealize.ShloMosaic.ValueIdx
open scoped BigOperators

/-- The embedding of the reals in the extended reals commutes with finite sums. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The f32 word of `2.0` denotes the real number 2. -/
theorem ofBits_two : Ideal.ofBits .f32 0x40000000#32 = ((2 : ℝ) : EReal) := by
  simp [Ideal.ofBits, Ideal.ieee, -EReal.coe_mul]; norm_num

/-- ‖a‖² + ‖b‖² − 2·⟨a, b⟩ = Σ_d (a_d − b_d)², for real entries, read on the extended reals. -/
theorem expanded_eq_direct {K : ℕ} (a b : Fin K → ℝ) :
    ((∑ d : Fin K, (a d : EReal) * (a d : EReal)) + ∑ d : Fin K, (b d : EReal) * (b d : EReal))
        - ((2 : ℝ) : EReal) * ∑ d : Fin K, (a d : EReal) * (b d : EReal)
      = ∑ d : Fin K, ((a d : EReal) - (b d : EReal)) * ((a d : EReal) - (b d : EReal)) := by
  have hreal : ((∑ d : Fin K, a d * a d) + ∑ d : Fin K, b d * b d) - 2 * ∑ d : Fin K, a d * b d
      = ∑ d : Fin K, (a d - b d) * (a d - b d) := by
    rw [Finset.mul_sum, ← Finset.sum_add_distrib, ← Finset.sum_sub_distrib]
    exact Finset.sum_congr rfl fun d _ => by ring
  simp only [← EReal.coe_mul, ← EReal.coe_sub, ← coe_sum, ← EReal.coe_add]
  exact congrArg _ hreal

/-- The squared distance between row `n` of `x` and row `k` of `y` in batch `g`, expanded:
    ‖x_n‖² + ‖y_k‖² − 2·⟨x_n, y_k⟩ (the factor two as its f32 word). -/
def sqExpanded (x y : (⟨3, ![2, 2048, 32]⟩ : Shape).Idx → EReal) (g : Fin 2) (n k : Fin 2048) : EReal :=
  ((∑ d : Fin 32, x (ix3 g n d) * x (ix3 g n d)) + ∑ d : Fin 32, y (ix3 g k d) * y (ix3 g k d))
    - Ideal.ofBits .f32 0x40000000#32 * ∑ d : Fin 32, x (ix3 g n d) * y (ix3 g k d)

/-- The same squared distance, direct: Σ_d (x_n,d − y_k,d)². -/
def sqDirect (x y : (⟨3, ![2, 2048, 32]⟩ : Shape).Idx → EReal) (g : Fin 2) (n k : Fin 2048) : EReal :=
  ∑ d : Fin 32, (x (ix3 g n d) - y (ix3 g k d)) * (x (ix3 g n d) - y (ix3 g k d))

/-- The distance array over the expanded squared distance: √(max(‖x_n‖² + ‖y_k‖² − 2·⟨x_n, y_k⟩, ε)) at `(g, n, k, 0)`. -/
def distExpanded (x y : (⟨3, ![2, 2048, 32]⟩ : Shape).Idx → EReal) : (⟨4, ![2, 2048, 2048, 1]⟩ : Shape).Idx → EReal :=
  fun i => Ideal.sqrt (max (sqExpanded x y (i 0) (i 1) (i 2)) (Ideal.ofBits .f32 0x33D6BF95#32))

/-- The distance array over the direct squared distance: √(max(Σ_d (x_n,d − y_k,d)², ε)) at `(g, n, k, 0)`. -/
def distDirect (x y : (⟨3, ![2, 2048, 32]⟩ : Shape).Idx → EReal) : (⟨4, ![2, 2048, 2048, 1]⟩ : Shape).Idx → EReal :=
  fun i => Ideal.sqrt (max (sqDirect x y (i 0) (i 1) (i 2)) (Ideal.ofBits .f32 0x33D6BF95#32))

/-- With every entry of `x` and of `y` a real number the two spellings of the squared distance agree, so the two
    distance arrays are one. -/
theorem distExpanded_eq_distDirect (x y : (⟨3, ![2, 2048, 32]⟩ : Shape).Idx → EReal)
    (hx : ∀ i, ∃ r : ℝ, x i = (r : EReal)) (hy : ∀ i, ∃ r : ℝ, y i = (r : EReal)) :
    distExpanded x y = distDirect x y := by
  choose a ha using hx
  choose b hb using hy
  funext i
  unfold distExpanded distDirect sqExpanded sqDirect
  simp only [ha, hb, ofBits_two]
  rw [expanded_eq_direct (fun d => a (ix3 (i 0) (i 1) d)) (fun d => b (ix3 (i 0) (i 2) d))]

end Cert.SquaredDistance

end
-- ==== Proof.KernelArray.lean ====
/-
  From the kernel's blocks to its whole result array.

  The grid has eight points, (g, q) with g < 2 a batch and q < 4 a tile of 512 rows. At point (g, q) the pipeline
  hands the body rows 512·q … 512·q + 511 of batch g of `x` and the whole batch g of `y`, and writes back block
  (g, q, 0, 0) of the `[2, 2048, 2048, 1]` result. Entry (·, r, k, ·) of what the body stores depends on row r of
  the `x` block and row k of the `y` block (Proof/KernelBlock.lean), that is on row 512·q + r of `x` and row k of
  `y` in batch g: exactly the rows entry (g, 512·q + r, k, 0) of the distance array depends on. So every point writes
  its block of ONE array, `SquaredDistance.distExpanded` of the two argument arrays; the eight blocks tile the
  result (row n lies in tile n / 512), so after the run the result IS that array.
-/
import proofs.«173155_j12335146074113_1_alg».proof.Proof.Gen.KernelIdeal.Value
import proofs.«173155_j12335146074113_1_alg».proof.Proof.KernelBlock
import proofs.«173155_j12335146074113_1_alg».proof.Proof.SquaredDistance

noncomputable section

namespace Cert.KernelIdeal.ArrayValue

open Cert.KernelIdeal Cert.KernelIdeal.Gen Cert.KernelIdeal.Value
open Idealize.ShloMosaic Idealize.ShloMosaic.TcCoe Idealize.SL.Sem Idealize.ShloMosaic.ValueIdx
open Idealize.ShloMosaic.Pipeline (Dat)
open Cert.SquaredDistance
open scoped BigOperators

/-- An entry of the stored block is the entry of the distance array that depends on the same rows: if row `j 1`
    of the `x` block is row `i 1` of `x` in batch `i 0`, and row `j 2` of the `y` block is row `i 2` of `y`
    in batch `i 0`, the body's value at `j` is the distance array at `i`. -/
theorem block_entry (x y : S2x2048x32.Idx → EReal) (v0 : Vec Ideal S1x512x32 .f32) (v2 : Vec Ideal S1x2048x32 .f32)
    (j : S1x512x2048x1.Idx) (i : S2x2048x2048x1.Idx)
    (hx : ∀ d : Fin 32, v0 (ix3 (0 : Fin 1) (j 1) d) = x (ix3 (i 0) (i 1) d))
    (hy : ∀ d : Fin 32, v2 (ix3 (0 : Fin 1) (j 2) d) = y (ix3 (i 0) (i 2) d)) :
    k0_pay1 (F := Ideal) v0 v2 j = distExpanded x y i := by
  refine ((congrArg (k0_pay1 (F := Ideal) v0 v2) (eq_ix4 j)).trans
    (Cert.KernelIdeal.BlockValue.payload_apply v0 v2 (j 0) (j 1) (j 2) (j 3))).trans ?_
  unfold distExpanded sqExpanded
  simp only [hx, hy]

variable (m : (ℓ : Loc nD τ sig) → Buf (Elt Ideal) ℓ) (ρ : Dev nD → PrngReg)

theorem zero3 : (![0, 0, 0] : Fin 3 → Nat) = fun _ => 0 := funext fun a => by fin_cases a <;> rfl
theorem zero4 : (![0, 0, 0, 0] : Fin 4 → Nat) = fun _ => 0 := funext fun a => by fin_cases a <;> rfl

/-- The printed index maps over the eight grid points: the `x` window moves with the result's block in batch and
    row tile, the `y` window in batch only, every other block index is zero, and the result's stay in range. -/
theorem block_indices : ∀ t : Fin cfg0.N,
    win0_0.index t (0 : Fin 3) = win0_2.index t (0 : Fin 4)
    ∧ win0_0.index t (1 : Fin 3) = win0_2.index t (1 : Fin 4)
    ∧ win0_0.index t (2 : Fin 3) = 0
    ∧ win0_1.index t (0 : Fin 3) = win0_2.index t (0 : Fin 4)
    ∧ win0_1.index t (1 : Fin 3) = 0
    ∧ win0_1.index t (2 : Fin 3) = 0
    ∧ win0_2.index t (2 : Fin 4) = 0
    ∧ win0_2.index t (3 : Fin 4) = 0
    ∧ win0_2.index t (0 : Fin 4) ≤ 1
    ∧ win0_2.index t (1 : Fin 4) ≤ 3 :=
  (by decide +kernel : ∀ t : Fin grid0.N, _)

/-- Every (batch, row tile) pair is some point's block. -/
theorem every_block : ∀ (g : Fin 2) (q : Fin 4), ∃ t : Fin cfg0.N, win0_2.index t = ![g.val, q.val, 0, 0] :=
  (by decide +kernel : ∀ (g : Fin 2) (q : Fin 4), ∃ t : Fin grid0.N, win0_2.index t = ![g.val, q.val, 0, 0])

/-- The `x` window's block at point `t`, read at `y`, is `x` at the index whose coordinates are block index ×
    block size + the coordinate inside the block. -/
theorem x_block_apply (c : Dev nD) (t : Fin cfg0.N) (y : S1x512x32.Idx) (i : S2x2048x32.Idx)
    (h0 : win0_0.index t (0 : Fin 3) * 1 + 1 * (y 0).val = (i 0).val)
    (h1 : win0_0.index t (1 : Fin 3) * 512 + 1 * (y 1).val = (i 1).val)
    (h2 : win0_0.index t (2 : Fin 3) * 32 + 1 * (y 2).val = (i 2).val) :
    (iblk m c 0 t : Vec Ideal S1x512x32 .f32) y = (V m c main_arg0 : S2x2048x32.Idx → EReal) i := by
  unfold iblk
  rw [View.read_apply]
  show V m c main_arg0 _ = V m c main_arg0 _
  refine congrArg (V m c main_arg0) (funext fun a => Fin.ext ?_)
  match a with
  | ⟨0, _⟩ => exact h0
  | ⟨1, _⟩ => exact h1
  | ⟨2, _⟩ => exact h2

/-- The same for the `y` window. -/
theorem y_block_apply (c : Dev nD) (t : Fin cfg0.N) (y : S1x2048x32.Idx) (i : S2x2048x32.Idx)
    (h0 : win0_1.index t (0 : Fin 3) * 1 + 1 * (y 0).val = (i 0).val)
    (h1 : win0_1.index t (1 : Fin 3) * 2048 + 1 * (y 1).val = (i 1).val)
    (h2 : win0_1.index t (2 : Fin 3) * 32 + 1 * (y 2).val = (i 2).val) :
    (iblk m c 1 t : Vec Ideal S1x2048x32 .f32) y = (V m c main_arg1 : S2x2048x32.Idx → EReal) i := by
  unfold iblk
  rw [View.read_apply]
  show V m c main_arg1 _ = V m c main_arg1 _
  refine congrArg (V m c main_arg1) (funext fun a => Fin.ext ?_)
  match a with
  | ⟨0, _⟩ => exact h0
  | ⟨1, _⟩ => exact h1
  | ⟨2, _⟩ => exact h2

/-- What point `t` writes back is block `t` of the distance array of the two argument arrays. -/
theorem flushed_eq (c : Dev nD) (t : Fin cfg0.N) :
    (dats m 0 c).flushed 2 t
      = ((cfg0.win 2).blk t).view.read (Elt Ideal) (distExpanded (V m c main_arg0) (V m c main_arg1)) := by
  rw [Value.flushed2]
  unfold out0_2
  rw [View.canon_unit_zero zero4]
  simp only [View.ld_unit_zero (S := S1x512x32) zero3, View.ld_unit_zero (S := S1x2048x32) zero3]
  obtain ⟨e0, e1, e2, e3, e4, e5, e6, e7, e8, e9⟩ := block_indices t
  funext j
  show k0_pay1 (F := Ideal) (iblk m c 0 t) (iblk m c 1 t) j
    = distExpanded (V m c main_arg0) (V m c main_arg1) (((cfg0.win 2).blk t).view.emb j)
  have hj0 : (j 0).val < 1 := (j 0).isLt
  refine block_entry (V m c main_arg0) (V m c main_arg1) (iblk m c 0 t) (iblk m c 1 t) j _ (fun d => ?_) (fun d => ?_)
  · refine x_block_apply m c t _ _ ?_ ?_ ?_
    · show win0_0.index t (0 : Fin 3) * 1 + 1 * 0 = win0_2.index t (0 : Fin 4) * 1 + 1 * (j 0).val
      omega
    · show win0_0.index t (1 : Fin 3) * 512 + 1 * (j 1).val = win0_2.index t (1 : Fin 4) * 512 + 1 * (j 1).val
      omega
    · show win0_0.index t (2 : Fin 3) * 32 + 1 * d.val = d.val
      omega
  · refine y_block_apply m c t _ _ ?_ ?_ ?_
    · show win0_1.index t (0 : Fin 3) * 1 + 1 * 0 = win0_2.index t (0 : Fin 4) * 1 + 1 * (j 0).val
      omega
    · show win0_1.index t (1 : Fin 3) * 2048 + 1 * (j 2).val = win0_2.index t (2 : Fin 4) * 2048 + 1 * (j 2).val
      omega
    · show win0_1.index t (2 : Fin 3) * 32 + 1 * d.val = d.val
      omega

/-- An index of the result is in point `t`'s block iff each coordinate is in the block's range on its axis. -/
theorem mem_block (t : Fin cfg0.N) (i : S2x2048x2048x1.Idx) :
    i ∈ ((cfg0.win 2).blk t).view.set ↔ ∀ a : Fin 4, win0_2.index t a * S1x512x2048x1.size a ≤ (i a).val
      ∧ (i a).val < win0_2.index t a * S1x512x2048x1.size a + S1x512x2048x1.size a := by
  show i ∈ ((View.whole main_v0).slice (win0_2.rect t)).set ↔ _
  rw [View.set_slice_whole, Rect.mem_set_unit]
  exact Iff.rfl

/-- The eight blocks cover the result: entry (g, n, k, 0) lies in the block of batch g and row tile n / 512. -/
theorem covered (i : S2x2048x2048x1.Idx) :
    ∃ t : Fin cfg0.N, (cfg0.win 2).flush t = true ∧ i ∈ ((cfg0.win 2).blk t).view.set := by
  have hi0 : (i 0).val < 2 := (i 0).isLt
  have hi1 : (i 1).val < 2048 := (i 1).isLt
  have hi2 : (i 2).val < 2048 := (i 2).isLt
  have hi3 : (i 3).val < 1 := (i 3).isLt
  obtain ⟨t, ht⟩ := every_block ⟨(i 0).val, hi0⟩ ⟨(i 1).val / 512, by omega⟩
  have q0 : win0_2.index t (0 : Fin 4) = (i 0).val := congrFun ht 0
  have q1 : win0_2.index t (1 : Fin 4) = (i 1).val / 512 := congrFun ht 1
  have q2 : win0_2.index t (2 : Fin 4) = 0 := congrFun ht 2
  have q3 : win0_2.index t (3 : Fin 4) = 0 := congrFun ht 3
  refine ⟨t, flush0_2 t, ?_⟩
  rw [mem_block]
  intro a
  match a with
  | ⟨0, _⟩ =>
    show win0_2.index t (0 : Fin 4) * 1 ≤ (i 0).val ∧ (i 0).val < win0_2.index t (0 : Fin 4) * 1 + 1
    omega
  | ⟨1, _⟩ =>
    show win0_2.index t (1 : Fin 4) * 512 ≤ (i 1).val ∧ (i 1).val < win0_2.index t (1 : Fin 4) * 512 + 512
    omega
  | ⟨2, _⟩ =>
    show win0_2.index t (2 : Fin 4) * 2048 ≤ (i 2).val ∧ (i 2).val < win0_2.index t (2 : Fin 4) * 2048 + 2048
    omega
  | ⟨3, _⟩ =>
    show win0_2.index t (3 : Fin 4) * 1 ≤ (i 3).val ∧ (i 3).val < win0_2.index t (3 : Fin 4) * 1 + 1
    omega

/-- After the run the result array is the distance array of the two argument arrays. -/
theorem final (c : Dev nD) :
    (dats m 0 c).arrAt 2 cfg0.N
      = distExpanded (m ((c : Thread nD τ).loc main_arg0)) (m ((c : Thread nD τ).loc main_arg1)) :=
  (dats m 0 c).arrAt_eq_of_cover 2 (distExpanded (V m c main_arg0) (V m c main_arg1))
    (fun t _ => flushed_eq m c t) covered

/-- The kernel's run, read: the result at the distance array of the arguments, the arguments unchanged. -/
theorem run : θ_run defs (onTc (τ := τ) (main (F := Ideal))) ⟨m, fun _ => 0, ρ⟩ fun r => ∀ c : Dev nD,
      r.2.mem ((c : Thread nD τ).loc main_v0)
        = distExpanded (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.KernelIdeal.ArrayValue

end
-- ==== Proof.ReferenceDistance.lean ====
/-
  What the reference computes, index by index: the direct spelling of the distance array.

  The reference stretches `x` along a new third axis and `y` along a new second axis to `[2, 2048, 2048, 32]`,
  subtracts, squares, sums the last axis from zero, keeps the summed axis as a unit axis, takes the larger of the sum
  and the floor `ε`, and the square root. Read at `(g, n, k, 0)` every broadcast keeps the coordinates its operand
  has, so the stretched `x` is read at `(g, n, d)`, the stretched `y` at `(g, k, d)`, and the entry is
  √(max(0 + Σ_d (x (g,n,d) − y (g,k,d))², ε)): `SquaredDistance.distDirect`.
-/
import proofs.«173155_j12335146074113_1_alg».proof.Proof.Gen.ReferenceIdeal.Read
import proofs.«173155_j12335146074113_1_alg».proof.Proof.SquaredDistance

noncomputable section

namespace Cert.ReferenceIdeal.RefValue

open Cert.ReferenceIdeal Cert.ReferenceIdeal.Gen Cert.ReferenceIdeal.Read
open Idealize.ShloMosaic Idealize.ShloMosaic.ValueIdx
open scoped BigOperators

/-- Through the reference's broadcasts and its sum over the last axis, entry `(g, n, k, ·)` reads `x` at `(g, n, d)`. -/
theorem x_index (g : Fin 2) (n k : Fin 2048) (w : Fin 1) (d : Fin 32) :
    idx_main_v0 (idx_main_v2 (idx_main_v6 (idx_main_v7 (ix4 g n k w)) d)) = ix3 g n d :=
  funext fun a => Fin.ext (by match a with | ⟨0, _⟩ => rfl | ⟨1, _⟩ => rfl | ⟨2, _⟩ => rfl)

/-- … and `y` at `(g, k, d)`. -/
theorem y_index (g : Fin 2) (n k : Fin 2048) (w : Fin 1) (d : Fin 32) :
    idx_main_v1 (idx_main_v3 (idx_main_v6 (idx_main_v7 (ix4 g n k w)) d)) = ix3 g k d :=
  funext fun a => Fin.ext (by match a with | ⟨0, _⟩ => rfl | ⟨1, _⟩ => rfl | ⟨2, _⟩ => rfl)

/-- The reference's result is the distance array in its direct spelling. -/
theorem reference_eq_distDirect (x y : (⟨3, ![2, 2048, 32]⟩ : Shape).Idx → EReal) :
    val_main_v10 (F := Ideal) x y = Cert.SquaredDistance.distDirect x y := by
  funext i
  obtain ⟨g, n, k, w, rfl⟩ : ∃ (g : Fin 2) (n : Fin 2048) (k : Fin 2048) (w : Fin 1), i = ix4 g n k w :=
    ⟨i 0, i 1, i 2, i 3, eq_ix4 i⟩
  rw [val_main_v10_apply, val_main_v9_apply, val_main_v7_apply, val_main_v6_apply, val_main_v8_apply,
    val_main_cst_0_apply, val_main_cst_apply]
  simp only [val_main_v5_apply, val_main_v4_apply, val_main_v2_apply, val_main_v3_apply, val_main_v0_apply,
    val_main_v1_apply, x_index, y_index, Ideal.hostUnary_sqrt_def, Ideal.maximumf_def, Ideal.mulf_def, Ideal.subf_def,
    Ideal.ofBits_def, Ideal.ofBits_zero_f32, zero_add]
  rfl

end Cert.ReferenceIdeal.RefValue

end
-- ==== Proof.FiniteInputs.lean ====
/-
  The precondition, read back: every entry of both inputs is a real number.

  The precondition is the conjunction of two tests, each "every entry's absolute value is below +∞", taken over
  all of `x` and all of `y`. A conjunction that holds gives both tests; a test over all entries that holds gives
  it at every entry; and an extended real whose absolute value `max a (−a)` is below `⊤` is neither `⊤` nor `⊥`,
  so it is a real number.
-/
import proofs.«173155_j12335146074113_1_alg».proof.Proof.Gen.Pre_finite_inputs
import Idealize.ShloMosaic.Lib.ReduceAll
import Idealize.ShloMosaic.Lib.Affine
import Idealize.ShloMosaic.Lib.ValueIdx
import Idealize.ShloMosaic.PureOps.Ideal

noncomputable section

namespace Cert.FiniteInputs

open Idealize.ShloMosaic Cert.Pre_finite_inputs Cert.Pre_finite_inputs.Facts

/-- The rank-0 shape has one index. -/
instance : Subsingleton S_.Idx := ⟨fun a b => funext fun d => d.elim0⟩

/-- The f32 word of +∞ denotes `⊤`. -/
theorem ofBits_inf : Ideal.ofBits .f32 0x7F800000#32 = ⊤ := by
  simp [Ideal.ofBits, Ideal.ieee]

/-- An extended real whose absolute value tests below +∞ is a real number. -/
theorem real_of_abs_lt_inf (a : EReal)
    (h : Ideal.cmp .olt (max a (-a)) (Ideal.ofBits .f32 0x7F800000#32) = 1#1) : ∃ r : ℝ, a = (r : EReal) := by
  rw [ofBits_inf] at h
  induction a using EReal.rec with
  | bot => simp [Ideal.cmp] at h
  | top => simp [Ideal.cmp] at h
  | coe r => exact ⟨r, rfl⟩

/-- Under the precondition every entry of `x` and every entry of `y` is a real number. -/
theorem all_real (x y : FVec Ideal S2x2048x32 .f32) (h : fn (F := Ideal) x y = fun _ => 1#1) :
    (∀ i, ∃ r : ℝ, x i = (r : EReal)) ∧ (∀ i, ∃ r : ℝ, y i = (r : EReal)) := by
  have h0 := congrFun h ValueIdx.ix0
  dsimp only [fn] at h0
  obtain ⟨hx, hy⟩ := IntOp.andi_eq_one.1 h0
  exact ⟨fun i => real_of_abs_lt_inf (x i) (Host.reduce_andi_all _ _ _ _ _ hx i),
    fun i => real_of_abs_lt_inf (y i) (Host.reduce_andi_all _ _ _ _ _ hy i)⟩

end Cert.FiniteInputs

end
-- ==== Proof.lean ====
/-
  Pairwise Euclidean distances: a tiled kernel against the direct formula, equal on the extended reals for finite
  inputs.

  For `x, y : [2, 2048, 32]` both programs return `[2, 2048, 2048, 1]`, entry (g, n, k, 0) the distance between row n of
  `x` and row k of `y` in batch g, floored: √(max(s, ε)) with s the squared distance and ε the f32 word `0x33D6BF95`
  (the same word in both programs, so never evaluated). They differ in how s is spelt.
  • The reference stretches `x` and `y` to `[2, 2048, 2048, 32]`, subtracts, squares and sums the last axis:
    s = Σ_d (x_n,d − y_k,d)²  (Proof/ReferenceDistance.lean, over the generated read-at-an-index lemmas).
  • The kernel works on eight blocks, 512 rows of `x` of one batch against all 2048 rows of `y` of that batch, and
    expands the square: s = (‖x_n‖² + ‖y_k‖²) − 2·⟨x_n, y_k⟩, the squared norms as row sums kept as a column (for `x`)
    and as a column turned into a row (for `y`), the inner products as the block of `x` times the transposed block of
    `y` accumulated into zero (Proof/LibGramNorms.lean, Proof/KernelBlock.lean). Every block is the matching block of ONE
    array and the eight blocks tile the result (Proof/KernelArray.lean, over the generated blockwise value leg).
  The two spellings agree because (a − b)² = a² + b² − 2ab term by term — for REAL entries: with an infinite entry
  the expanded form can be ⊤ − ⊤. The precondition says every entry of both inputs is finite
  (Proof/FiniteInputs.lean), and then every sum above is a real number and the identity is the real one
  (Proof/SquaredDistance.lean). Both programs then take the same maximum with ε and the same square root
  (the kernel's `sqrt` and the host's are one function on the extended reals).

  The three frames are the generated ones (the reference's is its generated run with the result dropped); the
  idealization rewrote nothing, so `preserves` is `True`.
-/
import proofs.«173155_j12335146074113_1_alg».proof.Defs
import proofs.«173155_j12335146074113_1_alg».proof.Proof.Gen.Kernel
import proofs.«173155_j12335146074113_1_alg».proof.Proof.Gen.Kernel.Skeleton
import proofs.«173155_j12335146074113_1_alg».proof.Proof.Gen.Kernel.Launch
import proofs.«173155_j12335146074113_1_alg».proof.Proof.Gen.Kernel.Points
import proofs.«173155_j12335146074113_1_alg».proof.Proof.Gen.Kernel.Frame
import proofs.«173155_j12335146074113_1_alg».proof.Proof.Gen.KernelIdeal
import proofs.«173155_j12335146074113_1_alg».proof.Proof.Gen.KernelIdeal.Skeleton
import proofs.«173155_j12335146074113_1_alg».proof.Proof.Gen.KernelIdeal.Launch
import proofs.«173155_j12335146074113_1_alg».proof.Proof.Gen.KernelIdeal.Points
import proofs.«173155_j12335146074113_1_alg».proof.Proof.Gen.KernelIdeal.Frame
import proofs.«173155_j12335146074113_1_alg».proof.Proof.Gen.ReferenceIdeal
import proofs.«173155_j12335146074113_1_alg».proof.Proof.Gen.Pre_finite_inputs
import proofs.«173155_j12335146074113_1_alg».proof.Proof.Gen.KernelIdeal.Value
import proofs.«173155_j12335146074113_1_alg».proof.Proof.Gen.ReferenceIdeal.Run
import proofs.«173155_j12335146074113_1_alg».proof.Proof.Gen.ReferenceIdeal.Read
import proofs.«173155_j12335146074113_1_alg».proof.Proof.KernelArray
import proofs.«173155_j12335146074113_1_alg».proof.Proof.ReferenceDistance
import proofs.«173155_j12335146074113_1_alg».proof.Proof.FiniteInputs
import Idealize.ShloMosaic.Adequacy
import Idealize.ShloMosaic.Init

noncomputable section

namespace Cert.Proof

open Idealize.ShloMosaic Idealize.ShloMosaic.TcCoe Idealize.SL.Sem

/-- The kernel as printed runs and leaves its arguments unchanged. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference runs and leaves its arguments unchanged: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Nothing was rewritten on the way to the extended reals. -/
theorem preserves : Cert.preserves_Kernel_KernelIdeal := trivial

/-- From memories agreeing on finite `x` and `y`, the kernel ends with the distance array in its expanded spelling
    and the reference with the direct one: one array, the entries being real. -/
theorem algebraic : Cert.algebraic_KernelIdeal_ReferenceIdeal := by
  intro m ρ m' ρ' hpre hagree
  refine ⟨_, Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  obtain ⟨hx, hy⟩ := Cert.FiniteInputs.all_real _ _ (hpre c)
  refine (Cert.ReferenceIdeal.Read.val_main_v10_eq _ _).trans ?_
  refine (Cert.ReferenceIdeal.RefValue.reference_eq_distDirect _ _).trans ?_
  rw [(hagree c).1, (hagree c).2]
  exact (Cert.SquaredDistance.distExpanded_eq_distDirect _ _ hx hy).symm

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
